-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S4000000x3 : Shape := ⟨2, ![4000000, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn {F : FTy → Type} [FloatOps F] (main_arg0 : FVec F S2000000x3 .f32) (main_arg1 : IVec S4000000x3 32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  main_v3
-- ==== Kernel.lean ====
abbrev S2000000x3 : Shape := ⟨2, ![2000000, 3]⟩
abbrev S4000000x3 : Shape := ⟨2, ![4000000, 3]⟩
abbrev S12000000 : Shape := ⟨1, ![12000000]⟩
abbrev S4000000x2 : Shape := ⟨2, ![4000000, 2]⟩
abbrev S4000000x1 : Shape := ⟨2, ![4000000, 1]⟩
abbrev S_ : Shape := ⟨0, ![]⟩
abbrev S12000000x1 : Shape := ⟨2, ![12000000, 1]⟩
abbrev S12000000x3 : Shape := ⟨2, ![12000000, 3]⟩
abbrev S2000000 : Shape := ⟨1, ![2000000]⟩
abbrev S46875x128 : Shape := ⟨2, ![46875, 128]⟩
abbrev S6000000 : Shape := ⟨1, ![6000000]⟩
abbrev S4096x128 : Shape := ⟨2, ![4096, 128]⟩

abbrev nBuf : Space → Nat
  | .hbm => 33
  | .vmem => 8
  | .smem => 0
  | _ => 0

abbrev bufTy : (tb : Table) → Fin (tcTables nBuf tb) → BufTy
  | .hbm, ⟨0, _⟩ => ⟨S2000000x3, .f32⟩
  | .hbm, ⟨1, _⟩ => ⟨S4000000x3, .i32⟩
  | .hbm, ⟨2, _⟩ => ⟨S12000000, .i32⟩
  | .hbm, ⟨3, _⟩ => ⟨S4000000x2, .i32⟩
  | .hbm, ⟨4, _⟩ => ⟨S4000000x1, .i32⟩
  | .hbm, ⟨5, _⟩ => ⟨S4000000x3, .i32⟩
  | .hbm, ⟨6, _⟩ => ⟨S12000000, .i32⟩
  | .hbm, ⟨7, _⟩ => ⟨S_, .i32⟩
  | .hbm, ⟨8, _⟩ => ⟨S12000000, .i32⟩
  | .hbm, ⟨9, _⟩ => ⟨S12000000, .i1⟩
  | .hbm, ⟨10, _⟩ => ⟨S_, .i32⟩
  | .hbm, ⟨11, _⟩ => ⟨S12000000, .i32⟩
  | .hbm, ⟨12, _⟩ => ⟨S12000000, .i32⟩
  | .hbm, ⟨13, _⟩ => ⟨S12000000, .i32⟩
  | .hbm, ⟨14, _⟩ => ⟨S12000000x1, .i32⟩
  | .hbm, ⟨15, _⟩ => ⟨S12000000x3, .f32⟩
  | .hbm, ⟨16, _⟩ => ⟨S_, .f32⟩
  | .hbm, ⟨17, _⟩ => ⟨S2000000x3, .f32⟩
  | .hbm, ⟨18, _⟩ => ⟨S12000000x1, .i32⟩
  | .hbm, ⟨19, _⟩ => ⟨S2000000x3, .f32⟩
  | .hbm, ⟨20, _⟩ => ⟨S_, .f32⟩
  | .hbm, ⟨21, _⟩ => ⟨S12000000, .f32⟩
  | .hbm, ⟨22, _⟩ => ⟨S_, .f32⟩
  | .hbm, ⟨23, _⟩ => ⟨S2000000, .f32⟩
  | .hbm, ⟨24, _⟩ => ⟨S12000000x1, .i32⟩
  | .hbm, ⟨25, _⟩ => ⟨S2000000, .f32⟩
  | .hbm, ⟨26, _⟩ => ⟨S46875x128, .f32⟩
  | .hbm, ⟨27, _⟩ => ⟨S46875x128, .f32⟩
  | .hbm, ⟨28, _⟩ => ⟨S2000000x3, .f32⟩
  | .hbm, ⟨29, _⟩ => ⟨S6000000, .f32⟩
  | .hbm, ⟨30, _⟩ => ⟨S46875x128, .f32⟩
  | .hbm, ⟨31, _⟩ => ⟨S46875x128, .f32⟩
  | .hbm, ⟨32, _⟩ => ⟨S2000000x3, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4000000x3_S12000000 : S4000000x3.ShapeCasts S12000000
  slices_S4000000x3_S4000000x2_0_1 : S4000000x3.Slices ![0, 1] S4000000x2
  slices_S4000000x3_S4000000x1_0_0 : S4000000x3.Slices ![0, 0] S4000000x1
  concatenates_S4000000x2_S4000000x1_S4000000x3_d1 : Shape.Concatenates [S4000000x2, S4000000x1] S4000000x3 1
  bcast_S_S12000000 : S_.BroadcastsInDim S12000000 (![] : Fin 0 → Fin S12000000.rank)
  bcast_S12000000_S12000000x1_0 : S12000000.BroadcastsInDim S12000000x1 (![0] : Fin 1 → Fin S12000000x1.rank)
  bcast_S_S2000000x3 : S_.BroadcastsInDim S2000000x3 (![] : Fin 0 → Fin S2000000x3.rank)
  bcast_S_S2000000 : S_.BroadcastsInDim S2000000 (![] : Fin 0 → Fin S2000000.rank)
  shapeCasts_S2000000x3_S46875x128 : S2000000x3.ShapeCasts S46875x128
  bcast_S2000000_S2000000x3_0 : S2000000.BroadcastsInDim S2000000x3 (![0] : Fin 1 → Fin S2000000x3.rank)
  shapeCasts_S2000000x3_S6000000 : S2000000x3.ShapeCasts S6000000
  shapeCasts_S6000000_S46875x128 : S6000000.ShapeCasts S46875x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S46875x128_S2000000x3 : S46875x128.ShapeCasts S2000000x3
  gather_S2000000x3_S12000000x1_S12000000x3_1_0_n_n_0_1_13_wf : GatherDims.WF S2000000x3 S12000000x1 S12000000x3 [1] [0] [] [0] [] 1 ![1, 3]
  scatter_S2000000x3_S12000000x1_S12000000x3_1_0_0_1_wf : ScatterDims.WF S2000000x3 S12000000x1 S12000000x3 [1] [0] [0] 1
  scatter_S2000000_S12000000x1_S12000000_n_0_0_1_wf : ScatterDims.WF S2000000 S12000000x1 S12000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S46875x128.size a
  hwx0_0 : ∀ i : grid0.Coords, EltTy.bits .f32 = 32 ∨ (Rect.unit (s := S46875x128) (fun a => cc0_transform_0 i a * S4096x128.size a) (fun a => (Pipeline.Clip.of (cc0_transform_0 i a) (S4096x128.size a) (S46875x128.size a)).extent (S4096x128.size a)) fun a => Pipeline.Clip.inb (Pipeline.Clip.ok_of (hstart0_0 i a))).WholeWords (EltTy.packing .f32)
  hwxs0_0 : ∀ i : grid0.Coords, EltTy.bits .f32 = 32 ∨ (Rect.unit (s := S4096x128) (fun _ => 0) (fun a => (Pipeline.Clip.of (cc0_transform_0 i a) (S4096x128.size a) (S46875x128.size a)).extent (S4096x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S46875x128.size a
  hwx0_1 : ∀ i : grid0.Coords, EltTy.bits .f32 = 32 ∨ (Rect.unit (s := S46875x128) (fun a => cc0_transform_1 i a * S4096x128.size a) (fun a => (Pipeline.Clip.of (cc0_transform_1 i a) (S4096x128.size a) (S46875x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S46875x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x128.size a < S46875x128.size a
  hwx0_2 : ∀ i : grid0.Coords, EltTy.bits .f32 = 32 ∨ (Rect.unit (s := S46875x128) (fun a => cc0_transform_2 i a * S4096x128.size a) (fun a => (Pipeline.Clip.of (cc0_transform_2 i a) (S4096x128.size a) (S46875x128.size a)).extent (S4096x128.size a)) fun a => Pipeline.Clip.inb (Pipeline.Clip.ok_of (hstart0_2 i a))).WholeWords (EltTy.packing .f32)
  hwxs0_2 : ∀ i : grid0.Coords, EltTy.bits .f32 = 32 ∨ (Rect.unit (s := S4096x128) (fun _ => 0) (fun a => (Pipeline.Clip.of (cc0_transform_2 i a) (S4096x128.size a) (S46875x128.size a)).extent (S4096x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x128.size a < S46875x128.size a
  hwx0_3 : ∀ i : grid0.Coords, EltTy.bits .f32 = 32 ∨ (Rect.unit (s := S46875x128) (fun a => cc0_transform_3 i a * S4096x128.size a) (fun a => (Pipeline.Clip.of (cc0_transform_3 i a) (S4096x128.size a) (S46875x128.size a)).extent (S4096x128.size a)) fun a => Pipeline.Clip.inb (Pipeline.Clip.ok_of (hstart0_3 i a))).WholeWords (EltTy.packing .f32)
  hwxs0_3 : ∀ i : grid0.Coords, EltTy.bits .f32 = 32 ∨ (Rect.unit (s := S4096x128) (fun _ => 0) (fun a => (Pipeline.Clip.of (cc0_transform_3 i a) (S4096x128.size a) (S46875x128.size a)).extent (S4096x128.size a)) fun a => (Nat.zero_add _).trans_le (Pipeline.Clip.extent_le (Pipeline.Clip.ok_of (hstart0_3 i a)))).WholeWords (EltTy.packing .f32)

variable [Facts₀]

def gather_S2000000x3_S12000000x1_S12000000x3_1_0_n_n_0_1_13 : GatherDims S2000000x3 S12000000x1 S12000000x3 where
  offsetDims := [1]
  collapsedSliceDims := [0]
  operandBatchingDims := []
  startIndicesBatchingDims := []
  startIndexMap := [0]
  indexVectorDim := 1
  sliceSizes := ![1, 3]
  wf := gather_S2000000x3_S12000000x1_S12000000x3_1_0_n_n_0_1_13_wf
def scatter_S2000000x3_S12000000x1_S12000000x3_1_0_0_1 : ScatterDims S2000000x3 S12000000x1 S12000000x3 where
  updateWindowDims := [1]
  insertedWindowDims := [0]
  scatterDimsToOperandDims := [0]
  indexVectorDim := 1
  wf := scatter_S2000000x3_S12000000x1_S12000000x3_1_0_0_1_wf
def scatter_S2000000_S12000000x1_S12000000_n_0_0_1 : ScatterDims S2000000 S12000000x1 S12000000 where
  updateWindowDims := []
  insertedWindowDims := [0]
  scatterDimsToOperandDims := [0]
  indexVectorDim := 1
  wf := scatter_S2000000_S12000000x1_S12000000_n_0_0_1_wf

abbrev win0_0 : Pipeline.Window sig grid0 :=
  Pipeline.Window.ofSpecClip (Memref.whole main_v17) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v18) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v21) S4096x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v22) S4096x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S4000000x3 : Shape := ⟨2, ![4000000, 3]⟩
abbrev S12000000 : Shape := ⟨1, ![12000000]⟩
abbrev S4000000x2 : Shape := ⟨2, ![4000000, 2]⟩
abbrev S4000000x1 : Shape := ⟨2, ![4000000, 1]⟩
abbrev S_ : Shape := ⟨0, ![]⟩
abbrev S12000000x1 : Shape := ⟨2, ![12000000, 1]⟩
abbrev S12000000x3 : Shape := ⟨2, ![12000000, 3]⟩
abbrev S2000000 : Shape := ⟨1, ![2000000]⟩
abbrev S2000000x1 : Shape := ⟨2, ![2000000, 1]⟩

abbrev nBuf : Space → Nat
  | .hbm => 44
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S4000000x3, .i32⟩
  | .hbm, ⟨2, _⟩ => ⟨S12000000, .i32⟩
  | .hbm, ⟨3, _⟩ => ⟨S4000000x2, .i32⟩
  | .hbm, ⟨4, _⟩ => ⟨S4000000x1, .i32⟩
  | .hbm, ⟨5, _⟩ => ⟨S4000000x3, .i32⟩
  | .hbm, ⟨6, _⟩ => ⟨S12000000, .i32⟩
  | .hbm, ⟨7, _⟩ => ⟨S_, .i32⟩
  | .hbm, ⟨8, _⟩ => ⟨S12000000, .i32⟩
  | .hbm, ⟨9, _⟩ => ⟨S12000000, .i1⟩
  | .hbm, ⟨10, _⟩ => ⟨S_, .i32⟩
  | .hbm, ⟨11, _⟩ => ⟨S12000000, .i32⟩
  | .hbm, ⟨12, _⟩ => ⟨S12000000, .i32⟩
  | .hbm, ⟨13, _⟩ => ⟨S12000000, .i32⟩
  | .hbm, ⟨14, _⟩ => ⟨S12000000x1, .i32⟩
  | .hbm, ⟨15, _⟩ => ⟨S12000000x3, .f32⟩
  | .hbm, ⟨16, _⟩ => ⟨S_, .f32⟩
  | .hbm, ⟨17, _⟩ => ⟨S2000000x3, .f32⟩
  | .hbm, ⟨18, _⟩ => ⟨S12000000x1, .i32⟩
  | .hbm, ⟨19, _⟩ => ⟨S2000000x3, .f32⟩
  | .hbm, ⟨20, _⟩ => ⟨S_, .f32⟩
  | .hbm, ⟨21, _⟩ => ⟨S12000000, .f32⟩
  | .hbm, ⟨22, _⟩ => ⟨S_, .f32⟩
  | .hbm, ⟨23, _⟩ => ⟨S2000000, .f32⟩
  | .hbm, ⟨24, _⟩ => ⟨S12000000x1, .i32⟩
  | .hbm, ⟨25, _⟩ => ⟨S2000000, .f32⟩
  | .hbm, ⟨26, _⟩ => ⟨S2000000x1, .f32⟩
  | .hbm, ⟨27, _⟩ => ⟨S_, .f32⟩
  | .hbm, ⟨28, _⟩ => ⟨S2000000x1, .f32⟩
  | .hbm, ⟨29, _⟩ => ⟨S2000000x1, .i1⟩
  | .hbm, ⟨30, _⟩ => ⟨S_, .f32⟩
  | .hbm, ⟨31, _⟩ => ⟨S2000000x1, .f32⟩
  | .hbm, ⟨32, _⟩ => ⟨S2000000x1, .f32⟩
  | .hbm, ⟨33, _⟩ => ⟨S2000000x3, .f32⟩
  | .hbm, ⟨34, _⟩ => ⟨S2000000x3, .f32⟩
  | .hbm, ⟨35, _⟩ => ⟨S2000000x3, .i1⟩
  | .hbm, ⟨36, _⟩ => ⟨S2000000x3, .f32⟩
  | .hbm, ⟨37, _⟩ => ⟨S_, .f32⟩
  | .hbm, ⟨38, _⟩ => ⟨S2000000x3, .f32⟩
  | .hbm, ⟨39, _⟩ => ⟨S2000000x3, .f32⟩
  | .hbm, ⟨40, _⟩ => ⟨S_, .f32⟩
  | .hbm, ⟨41, _⟩ => ⟨S2000000x3, .f32⟩
  | .hbm, ⟨42, _⟩ => ⟨S2000000x3, .f32⟩
  | .hbm, ⟨43, _⟩ => ⟨S2000000x3, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  shapeCasts_S4000000x3_S12000000 : S4000000x3.ShapeCasts S12000000
  slices_S4000000x3_S4000000x2_0_1 : S4000000x3.Slices ![0, 1] S4000000x2
  slices_S4000000x3_S4000000x1_0_0 : S4000000x3.Slices ![0, 0] S4000000x1
  concatenates_S4000000x2_S4000000x1_S4000000x3_d1 : Shape.Concatenates [S4000000x2, S4000000x1] S4000000x3 1
  bcast_S_S12000000 : S_.BroadcastsInDim S12000000 (![] : Fin 0 → Fin S12000000.rank)
  bcast_S12000000_S12000000x1_0 : S12000000.BroadcastsInDim S12000000x1 (![0] : Fin 1 → Fin S12000000x1.rank)
  bcast_S_S2000000x3 : S_.BroadcastsInDim S2000000x3 (![] : Fin 0 → Fin S2000000x3.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x3_0_1 : S2000000x1.BroadcastsInDim S2000000x3 (![0, 1] : Fin 2 → Fin S2000000x3.rank)
  gather_S2000000x3_S12000000x1_S12000000x3_1_0_n_n_0_1_13_wf : GatherDims.WF S2000000x3 S12000000x1 S12000000x3 [1] [0] [] [0] [] 1 ![1, 3]
  scatter_S2000000x3_S12000000x1_S12000000x3_1_0_0_1_wf : ScatterDims.WF S2000000x3 S12000000x1 S12000000x3 [1] [0] [0] 1
  scatter_S2000000_S12000000x1_S12000000_n_0_0_1_wf : ScatterDims.WF S2000000 S12000000x1 S12000000 [] [0] [0] 1

variable [Facts₀]

def gather_S2000000x3_S12000000x1_S12000000x3_1_0_n_n_0_1_13 : GatherDims S2000000x3 S12000000x1 S12000000x3 where
  offsetDims := [1]
  collapsedSliceDims := [0]
  operandBatchingDims := []
  startIndicesBatchingDims := []
  startIndexMap := [0]
  indexVectorDim := 1
  sliceSizes := ![1, 3]
  wf := gather_S2000000x3_S12000000x1_S12000000x3_1_0_n_n_0_1_13_wf
def scatter_S2000000x3_S12000000x1_S12000000x3_1_0_0_1 : ScatterDims S2000000x3 S12000000x1 S12000000x3 where
  updateWindowDims := [1]
  insertedWindowDims := [0]
  scatterDimsToOperandDims := [0]
  indexVectorDim := 1
  wf := scatter_S2000000x3_S12000000x1_S12000000x3_1_0_0_1_wf
def scatter_S2000000_S12000000x1_S12000000_n_0_0_1 : ScatterDims S2000000 S12000000x1 S12000000 where
  updateWindowDims := []
  insertedWindowDims := [0]
  scatterDimsToOperandDims := [0]
  indexVectorDim := 1
  wf := scatter_S2000000_S12000000x1_S12000000_n_0_0_1_wf

class Facts : Prop extends Facts₀ where

variable [Facts]
-- ==== Proof.FrameBits.lean ====
/-
  The frame run of `Kernel`'s one pipelined region, at any float instance.

  The region walks twelve row blocks of 4096 rows over three [46875, 128] operands and one result of the same
  shape. 12 · 4096 = 49152 exceeds 46875, so the last block overhangs every array by 2277 rows: its fetch lands
  only the 1819 rows inside the array and leaves the rest of the staging buffer at words nothing names, and its
  write-back moves only those 1819 rows. The body is lane-wise: every lane of the result block is one scalar
  function (`lane`) of the same lane of the three operand blocks, so the overhanging rows are computed from
  unnamed words and then dropped by the cut write-back.

  Proof data: after the body each operand's buffer holds its block (filled out with zero words past the array's
  end) and the result's buffer the lane-wise function of those; the body obligation is stated on the rows the
  transfers move only. The run is the library's frame run around a region with host operations on both sides.
-/
import proofs.«176351_j68186900791880_1_alg».proof.Proof.Gen.Kernel.Frame
import proofs.«176351_j68186900791880_1_alg».proof.Proof.Gen.Kernel.Skeleton
import proofs.«176351_j68186900791880_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One lane of the body -/

/-- One lane: `½·v + ½·(if c > 0 then s / max(c, 1) else v)`, over the instance's scalar operations. -/
def lane (v s c : Elt F .f32) : Elt F .f32 :=
  FloatOps.addf (FloatOps.mulf (Scalar.ofBits .f32 0x3F000000#32) v)
    (FloatOps.mulf (Scalar.ofBits .f32 0x3F000000#32)
      (Scalar.select (FloatOps.cmpf .ogt c (Scalar.ofBits .f32 0x00000000#32))
        (FloatOps.divf s (FloatOps.maximumf c (Scalar.ofBits .f32 0x3F800000#32))) v))

/-- The body's one payload is `lane` at every index of the block (its three shape casts are casts of a shape to
    itself). -/
theorem pay_eq (x0 x1 x2 : Vec F S4096x128 .f32) :
    k0_pay1 x0 x1 x2 = fun j => lane (x0 j) (x1 j) (x2 j) := by
  unfold k0_pay1
  simp only [shapeCast_self]
  rfl

/-! ## The body's triple -/

abbrev r0 : Rect S4096x128 := Rect.unit (s := S4096x128) ![0, 0] S4096x128.size inb_S4096x128_S4096x128_0_0

theorem hz : (![0, 0] : Fin 2 → Nat) = fun _ => 0 := funext fun a => by fin_cases a <;> rfl

/-- The result's staging buffer after the body: its one whole store, as a piece. -/
def out3 (x0 x1 x2 : Vec F S4096x128 .f32) : Vec F S4096x128 .f32 :=
  View.canon [⟨r0, k0_pay1 (View.ld x0 r0) (View.ld x1 r0) (View.ld x2 r0)⟩]

/-- The store covers the buffer. -/
theorem cover3 (p0 : Vec F S4096x128 .f32) (y : S4096x128.Idx) :
    ∃ pc ∈ ([⟨r0, p0⟩] : List (View.Piece (Elt F) S4096x128 .f32)), y ∈ pc.1.set :=
  View.cover_of_tiled [⟨r0, p0⟩] S4096x128.size (by rfl) y

/-- Whole loads and a whole store: the buffer ends at the payload of the three buffers' contents. -/
theorem out3_eq (x0 x1 x2 : Vec F S4096x128 .f32) : out3 x0 x1 x2 = k0_pay1 x0 x1 x2 := by
  unfold out3
  rw [View.canon_unit_zero hz]
  simp only [View.ld_unit_zero (S := S4096x128) hz]

set_option maxHeartbeats 1000000 in
/-- The body on whole staging memrefs, the operands' at contents `xW` and the result's at anything, runs to the
    continuation with the operands' as they were and the result's at `out3`. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (x0 x1 x2 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- An operand's block at point `t` filled out to the staging buffer's shape with zero words past the array's end. -/
def blk0 (c : Dev nD) (t : Fin cfg0.N) : S4096x128.Idx → Elt F .f32 :=
  win0_0.fill (grid0.coords t) (fun _ => Scalar.ofBits .f32 0#32) (iblk m c 0 t)
def blk1 (c : Dev nD) (t : Fin cfg0.N) : S4096x128.Idx → Elt F .f32 :=
  win0_1.fill (grid0.coords t) (fun _ => Scalar.ofBits .f32 0#32) (iblk m c 1 t)
def blk2 (c : Dev nD) (t : Fin cfg0.N) : S4096x128.Idx → Elt F .f32 :=
  win0_2.fill (grid0.coords t) (fun _ => Scalar.ofBits .f32 0#32) (iblk m c 2 t)
/-- The result's buffer: the payload of those. -/
def blk3 (c : Dev nD) (t : Fin cfg0.N) : S4096x128.Idx → Elt F .f32 :=
  k0_pay1 (blk0 m c t) (blk1 m c t) (blk2 m c t)

/-- The proof data of the pipeline on core `c`: the arrays as the region finds them; after the body each operand's
    buffer at its filled block and the result's at the payload of those; the class's invariant; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = blk2 m c t := by dsimp only [dats]
theorem after3 (c : Dev nD) (t : Fin cfg0.N) : (dats m 0 c).after 3 t = blk3 m c t := by dsimp only [dats]

/-- What the body finds: each operand's buffer just fetched — its block on the rows inside the array, `d` elsewhere. -/
theorem before0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk; rw [A_eq]
theorem before1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]
theorem before2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]
/-- The result's buffer is fresh at every point: the first, or one after a write-back. -/
theorem before3 (c : Dev nD) (t : Fin cfg0.N) (d) : (dats m 0 c).before 3 t d = d := by
  refine (dats m 0 c).before_out_reset 3 rfl t ?_ d
  by_cases h : t.val = 0
  · exact .inl h
  · exact .inr ⟨h, flush0_3 _⟩

/-- On the rows a transfer moves, the payload of three filled blocks does not depend on what filled them: lane by
    lane it is `lane` of the blocks themselves. -/
theorem cut_pay (t : Fin cfg0.N) (d0 d1 d2 : S4096x128.Idx → Elt F .f32)
    (b0 : (win0_0.xblock (grid0.coords t)).Idx → Elt F .f32) (b1 : (win0_1.xblock (grid0.coords t)).Idx → Elt F .f32)
    (b2 : (win0_2.xblock (grid0.coords t)).Idx → Elt F .f32) :
    win0_3.cut (grid0.coords t)
        (k0_pay1 (win0_0.fill (grid0.coords t) d0 b0) (win0_1.fill (grid0.coords t) d1 b1) (win0_2.fill (grid0.coords t) d2 b2))
      = fun j => lane (b0 j) (b1 j) (b2 j) := by
  rw [pay_eq]
  funext j
  have e0 : win0_0.fill (grid0.coords t) d0 b0 (win0_3.xinj (grid0.coords t) j) = b0 j := win0_0.fill_xinj _ d0 b0 j
  have e1 : win0_1.fill (grid0.coords t) d1 b1 (win0_3.xinj (grid0.coords t) j) = b1 j := win0_1.fill_xinj _ d1 b1 j
  have e2 : win0_2.fill (grid0.coords t) d2 b2 (win0_3.xinj (grid0.coords t) j) = b2 j := win0_2.fill_xinj _ d2 b2 j
  show lane (win0_0.fill (grid0.coords t) d0 b0 (win0_3.xinj (grid0.coords t) j))
      (win0_1.fill (grid0.coords t) d1 b1 (win0_3.xinj (grid0.coords t) j))
      (win0_2.fill (grid0.coords t) d2 b2 (win0_3.xinj (grid0.coords t) j)) = _
  rw [e0, e1, e2]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: every buffer stated on the rows its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  rw [before0 m c t d0, before1 m c t d1, before2 m c t d2]
  iapply (sound_kernel c Set.univ (grid0.coords t) _ _ _ _ _ _ _ _
    (win0_0.fill (grid0.coords t) d0 (iblk m c 0 t)) (win0_1.fill (grid0.coords t) d1 (iblk m c 1 t))
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h0 : win0_0.cut (grid0.coords t) (blk0 m c t) = iblk m c 0 t := win0_0.cut_fill _ _ _
  have h1 : win0_1.cut (grid0.coords t) (blk1 m c t) = iblk m c 1 t := win0_1.cut_fill _ _ _
  have h2 : win0_2.cut (grid0.coords t) (blk2 m c t) = iblk m c 2 t := win0_2.cut_fill _ _ _
  have h3 : win0_3.cut (grid0.coords t) (blk3 m c t)
      = win0_3.cut (grid0.coords t) (out3 (win0_0.fill (grid0.coords t) d0 (iblk m c 0 t))
          (win0_1.fill (grid0.coords t) d1 (iblk m c 1 t)) (win0_2.fill (grid0.coords t) d2 (iblk m c 2 t))) := by
    rw [out3_eq, cut_pay]
    unfold blk3 blk0 blk1 blk2
    rw [cut_pay]
  isplitl [H0]
  · iexists d0; rw [h0]; iexact H0
  isplitl [H1]
  · iexists d1; rw [h1]; iexact H1
  isplitl [H2]
  · iexists d2; rw [h2]; iexact H2
  · iexists _; rw [h3, Window.fill_cut]; iexact H3

/-- The library's body obligation, every window stated on the rows its transfers move. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every array of the pipeline at what the
    library computes from the proof data, read through the host operations after the region. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.FrameIdeal.lean ====
/-
  The frame run of `KernelIdeal`'s one pipelined region, at any float instance.

  The region walks twelve row blocks of 4096 rows over three [46875, 128] operands and one result of the same
  shape. 12 · 4096 = 49152 exceeds 46875, so the last block overhangs every array by 2277 rows: its fetch lands
  only the 1819 rows inside the array and leaves the rest of the staging buffer at words nothing names, and its
  write-back moves only those 1819 rows. The body is lane-wise: every lane of the result block is one scalar
  function (`lane`) of the same lane of the three operand blocks, so the overhanging rows are computed from
  unnamed words and then dropped by the cut write-back.

  Proof data: after the body each operand's buffer holds its block (filled out with zero words past the array's
  end) and the result's buffer the lane-wise function of those; the body obligation is stated on the rows the
  transfers move only. The run is the library's frame run around a region with host operations on both sides.
-/
import proofs.«176351_j68186900791880_1_alg».proof.Proof.Gen.KernelIdeal.Frame
import proofs.«176351_j68186900791880_1_alg».proof.Proof.Gen.KernelIdeal.Skeleton
import proofs.«176351_j68186900791880_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One lane of the body -/

/-- One lane: `½·v + ½·(if c > 0 then s / max(c, 1) else v)`, over the instance's scalar operations. -/
def lane (v s c : Elt F .f32) : Elt F .f32 :=
  FloatOps.addf (FloatOps.mulf (Scalar.ofBits .f32 0x3F000000#32) v)
    (FloatOps.mulf (Scalar.ofBits .f32 0x3F000000#32)
      (Scalar.select (FloatOps.cmpf .ogt c (Scalar.ofBits .f32 0x00000000#32))
        (FloatOps.divf s (FloatOps.maximumf c (Scalar.ofBits .f32 0x3F800000#32))) v))

/-- The body's one payload is `lane` at every index of the block (its three shape casts are casts of a shape to
    itself). -/
theorem pay_eq (x0 x1 x2 : Vec F S4096x128 .f32) :
    k0_pay1 x0 x1 x2 = fun j => lane (x0 j) (x1 j) (x2 j) := by
  unfold k0_pay1
  simp only [shapeCast_self]
  rfl

/-! ## The body's triple -/

abbrev r0 : Rect S4096x128 := Rect.unit (s := S4096x128) ![0, 0] S4096x128.size inb_S4096x128_S4096x128_0_0

theorem hz : (![0, 0] : Fin 2 → Nat) = fun _ => 0 := funext fun a => by fin_cases a <;> rfl

/-- The result's staging buffer after the body: its one whole store, as a piece. -/
def out3 (x0 x1 x2 : Vec F S4096x128 .f32) : Vec F S4096x128 .f32 :=
  View.canon [⟨r0, k0_pay1 (View.ld x0 r0) (View.ld x1 r0) (View.ld x2 r0)⟩]

/-- The store covers the buffer. -/
theorem cover3 (p0 : Vec F S4096x128 .f32) (y : S4096x128.Idx) :
    ∃ pc ∈ ([⟨r0, p0⟩] : List (View.Piece (Elt F) S4096x128 .f32)), y ∈ pc.1.set :=
  View.cover_of_tiled [⟨r0, p0⟩] S4096x128.size (by rfl) y

/-- Whole loads and a whole store: the buffer ends at the payload of the three buffers' contents. -/
theorem out3_eq (x0 x1 x2 : Vec F S4096x128 .f32) : out3 x0 x1 x2 = k0_pay1 x0 x1 x2 := by
  unfold out3
  rw [View.canon_unit_zero hz]
  simp only [View.ld_unit_zero (S := S4096x128) hz]

set_option maxHeartbeats 1000000 in
/-- The body on whole staging memrefs, the operands' at contents `xW` and the result's at anything, runs to the
    continuation with the operands' as they were and the result's at `out3`. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (x0 x1 x2 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- An operand's block at point `t` filled out to the staging buffer's shape with zero words past the array's end. -/
def blk0 (c : Dev nD) (t : Fin cfg0.N) : S4096x128.Idx → Elt F .f32 :=
  win0_0.fill (grid0.coords t) (fun _ => Scalar.ofBits .f32 0#32) (iblk m c 0 t)
def blk1 (c : Dev nD) (t : Fin cfg0.N) : S4096x128.Idx → Elt F .f32 :=
  win0_1.fill (grid0.coords t) (fun _ => Scalar.ofBits .f32 0#32) (iblk m c 1 t)
def blk2 (c : Dev nD) (t : Fin cfg0.N) : S4096x128.Idx → Elt F .f32 :=
  win0_2.fill (grid0.coords t) (fun _ => Scalar.ofBits .f32 0#32) (iblk m c 2 t)
/-- The result's buffer: the payload of those. -/
def blk3 (c : Dev nD) (t : Fin cfg0.N) : S4096x128.Idx → Elt F .f32 :=
  k0_pay1 (blk0 m c t) (blk1 m c t) (blk2 m c t)

/-- The proof data of the pipeline on core `c`: the arrays as the region finds them; after the body each operand's
    buffer at its filled block and the result's at the payload of those; the class's invariant; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = blk2 m c t := by dsimp only [dats]
theorem after3 (c : Dev nD) (t : Fin cfg0.N) : (dats m 0 c).after 3 t = blk3 m c t := by dsimp only [dats]

/-- What the body finds: each operand's buffer just fetched — its block on the rows inside the array, `d` elsewhere. -/
theorem before0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk; rw [A_eq]
theorem before1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]
theorem before2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]
/-- The result's buffer is fresh at every point: the first, or one after a write-back. -/
theorem before3 (c : Dev nD) (t : Fin cfg0.N) (d) : (dats m 0 c).before 3 t d = d := by
  refine (dats m 0 c).before_out_reset 3 rfl t ?_ d
  by_cases h : t.val = 0
  · exact .inl h
  · exact .inr ⟨h, flush0_3 _⟩

/-- On the rows a transfer moves, the payload of three filled blocks does not depend on what filled them: lane by
    lane it is `lane` of the blocks themselves. -/
theorem cut_pay (t : Fin cfg0.N) (d0 d1 d2 : S4096x128.Idx → Elt F .f32)
    (b0 : (win0_0.xblock (grid0.coords t)).Idx → Elt F .f32) (b1 : (win0_1.xblock (grid0.coords t)).Idx → Elt F .f32)
    (b2 : (win0_2.xblock (grid0.coords t)).Idx → Elt F .f32) :
    win0_3.cut (grid0.coords t)
        (k0_pay1 (win0_0.fill (grid0.coords t) d0 b0) (win0_1.fill (grid0.coords t) d1 b1) (win0_2.fill (grid0.coords t) d2 b2))
      = fun j => lane (b0 j) (b1 j) (b2 j) := by
  rw [pay_eq]
  funext j
  have e0 : win0_0.fill (grid0.coords t) d0 b0 (win0_3.xinj (grid0.coords t) j) = b0 j := win0_0.fill_xinj _ d0 b0 j
  have e1 : win0_1.fill (grid0.coords t) d1 b1 (win0_3.xinj (grid0.coords t) j) = b1 j := win0_1.fill_xinj _ d1 b1 j
  have e2 : win0_2.fill (grid0.coords t) d2 b2 (win0_3.xinj (grid0.coords t) j) = b2 j := win0_2.fill_xinj _ d2 b2 j
  show lane (win0_0.fill (grid0.coords t) d0 b0 (win0_3.xinj (grid0.coords t) j))
      (win0_1.fill (grid0.coords t) d1 b1 (win0_3.xinj (grid0.coords t) j))
      (win0_2.fill (grid0.coords t) d2 b2 (win0_3.xinj (grid0.coords t) j)) = _
  rw [e0, e1, e2]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: every buffer stated on the rows its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  rw [before0 m c t d0, before1 m c t d1, before2 m c t d2]
  iapply (sound_kernel c Set.univ (grid0.coords t) _ _ _ _ _ _ _ _
    (win0_0.fill (grid0.coords t) d0 (iblk m c 0 t)) (win0_1.fill (grid0.coords t) d1 (iblk m c 1 t))
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h0 : win0_0.cut (grid0.coords t) (blk0 m c t) = iblk m c 0 t := win0_0.cut_fill _ _ _
  have h1 : win0_1.cut (grid0.coords t) (blk1 m c t) = iblk m c 1 t := win0_1.cut_fill _ _ _
  have h2 : win0_2.cut (grid0.coords t) (blk2 m c t) = iblk m c 2 t := win0_2.cut_fill _ _ _
  have h3 : win0_3.cut (grid0.coords t) (blk3 m c t)
      = win0_3.cut (grid0.coords t) (out3 (win0_0.fill (grid0.coords t) d0 (iblk m c 0 t))
          (win0_1.fill (grid0.coords t) d1 (iblk m c 1 t)) (win0_2.fill (grid0.coords t) d2 (iblk m c 2 t))) := by
    rw [out3_eq, cut_pay]
    unfold blk3 blk0 blk1 blk2
    rw [cut_pay]
  isplitl [H0]
  · iexists d0; rw [h0]; iexact H0
  isplitl [H1]
  · iexists d1; rw [h1]; iexact H1
  isplitl [H2]
  · iexists d2; rw [h2]; iexact H2
  · iexists _; rw [h3, Window.fill_cut]; iexact H3

/-- The library's body obligation, every window stated on the rows its transfers move. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every array of the pipeline at what the
    library computes from the proof data, read through the host operations after the region. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.RefRun.lean ====
/-
  The reference's run, read back: its @main is a straight line of 42 host operations, and every weakly fair
  execution ends with the result buffer at their composed term of the two arguments. The term is named in pieces:
  the two endpoints of every directed edge (each triangle's corners, and the corners rotated by one), the sum over a
  vertex's outgoing edges of the far endpoint's position (`nbrSum`, a gather then an accumulating scatter), the
  number of those edges (`nbrCnt`), and the smoothing step `½·v + ½·(if cnt > 0 then sum / max(cnt, 1) else v)`
  with the count broadcast along the coordinate axis (`smooth`).
-/
import proofs.«176351_j68186900791880_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 42 operations, in order (a called function's operations stand in its call's place, spelt `TRef.…`). -/
abbrev ops : List (HloOp τ sig (Elt F)) :=
  [ reshape main_arg1 main_v0 rfl shapeCasts_S4000000x3_S12000000,
    TRef.unary (TRef.of (T := ⟨S4000000x3, .i32⟩) main_arg1) (TRef.of (T := ⟨S4000000x2, .i32⟩) main_call0_v0) (extractStridedSlice S4000000x2 ![0, 1] · slices_S4000000x3_S4000000x2_0_1),
    TRef.unary (TRef.of (T := ⟨S4000000x3, .i32⟩) main_arg1) (TRef.of (T := ⟨S4000000x1, .i32⟩) main_call0_v1) (extractStridedSlice S4000000x1 ![0, 0] · slices_S4000000x3_S4000000x1_0_0),
    TRef.binary (TRef.of (T := ⟨S4000000x2, .i32⟩) main_call0_v0) (TRef.of (T := ⟨S4000000x1, .i32⟩) main_call0_v1) (TRef.of (T := ⟨S4000000x3, .i32⟩) main_v1) (fun a b => concatenate S4000000x3 1 [⟨S4000000x2, a⟩, ⟨S4000000x1, b⟩] concatenates_S4000000x2_S4000000x1_S4000000x3_d1),
    reshape main_v1 main_v2 rfl shapeCasts_S4000000x3_S12000000,
    nullary main_c (constantI S_ 32 0#32),
    unary main_c main_v3 (broadcastInDim S12000000 ![] bcast_S_S12000000 : (⟨S_, .i32⟩ : BufTy).Contents (Elt F) → (⟨S12000000, .i32⟩ : BufTy).Contents (Elt F)),
    binary main_v2 main_v3 main_v4 (cmpi .slt : (⟨S12000000, .i32⟩ : BufTy).Contents (Elt F) → (⟨S12000000, .i32⟩ : BufTy).Contents (Elt F) → (⟨S12000000, .i1⟩ : BufTy).Contents (Elt F)),
    nullary main_c_0 (constantI S_ 32 2000000#32),
    unary main_c_0 main_v5 (broadcastInDim S12000000 ![] bcast_S_S12000000 : (⟨S_, .i32⟩ : BufTy).Contents (Elt F) → (⟨S12000000, .i32⟩ : BufTy).Contents (Elt F)),
    binary main_v2 main_v5 main_v6 (addi : (⟨S12000000, .i32⟩ : BufTy).Contents (Elt F) → (⟨S12000000, .i32⟩ : BufTy).Contents (Elt F) → (⟨S12000000, .i32⟩ : BufTy).Contents (Elt F)),
    ternary main_v4 main_v6 main_v2 main_v7 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    unary main_v7 main_v8 (broadcastInDim S12000000x1 ![0] bcast_S12000000_S12000000x1_0 : (⟨S12000000, .i32⟩ : BufTy).Contents (Elt F) → (⟨S12000000x1, .i32⟩ : BufTy).Contents (Elt F)),
    binary main_arg0 main_v8 main_v9 ((fun x i => Host.gather gather_S2000000x3_S12000000x1_S12000000x3_1_0_n_n_0_1_13 x i) : (⟨S2000000x3, .f32⟩ : BufTy).Contents (Elt F) → (⟨S12000000x1, .i32⟩ : BufTy).Contents (Elt F) → (⟨S12000000x3, .f32⟩ : BufTy).Contents (Elt F)),
    nullary main_cst (constant S_ .f32 0x00000000#32),
    unary main_cst main_v10 (broadcastInDim S2000000x3 ![] bcast_S_S2000000x3 : (⟨S_, .f32⟩ : BufTy).Contents (Elt F) → (⟨S2000000x3, .f32⟩ : BufTy).Contents (Elt F)),
    unary main_v0 main_v11 (broadcastInDim S12000000x1 ![0] bcast_S12000000_S12000000x1_0 : (⟨S12000000, .i32⟩ : BufTy).Contents (Elt F) → (⟨S12000000x1, .i32⟩ : BufTy).Contents (Elt F)),
    ternary main_v10 main_v11 main_v9 main_v12 ((fun x i u => Host.scatterAdd scatter_S2000000x3_S12000000x1_S12000000x3_1_0_0_1 x i u) : (⟨S2000000x3, .f32⟩ : BufTy).Contents (Elt F) → (⟨S12000000x1, .i32⟩ : BufTy).Contents (Elt F) → (⟨S12000000x3, .f32⟩ : BufTy).Contents (Elt F) → (⟨S2000000x3, .f32⟩ : BufTy).Contents (Elt F)),
    nullary main_cst_1 (constant S_ .f32 0x3F800000#32),
    unary main_cst_1 main_v13 (broadcastInDim S12000000 ![] bcast_S_S12000000 : (⟨S_, .f32⟩ : BufTy).Contents (Elt F) → (⟨S12000000, .f32⟩ : BufTy).Contents (Elt F)),
    nullary main_cst_2 (constant S_ .f32 0x00000000#32),
    unary main_cst_2 main_v14 (broadcastInDim S2000000 ![] bcast_S_S2000000 : (⟨S_, .f32⟩ : BufTy).Contents (Elt F) → (⟨S2000000, .f32⟩ : BufTy).Contents (Elt F)),
    unary main_v0 main_v15 (broadcastInDim S12000000x1 ![0] bcast_S12000000_S12000000x1_0 : (⟨S12000000, .i32⟩ : BufTy).Contents (Elt F) → (⟨S12000000x1, .i32⟩ : BufTy).Contents (Elt F)),
    ternary main_v14 main_v15 main_v13 main_v16 ((fun x i u => Host.scatterAdd scatter_S2000000_S12000000x1_S12000000_n_0_0_1 x i u) : (⟨S2000000, .f32⟩ : BufTy).Contents (Elt F) → (⟨S12000000x1, .i32⟩ : BufTy).Contents (Elt F) → (⟨S12000000, .f32⟩ : BufTy).Contents (Elt F) → (⟨S2000000, .f32⟩ : BufTy).Contents (Elt F)),
    unary main_v16 main_v17 (broadcastInDim S2000000x1 ![0] bcast_S2000000_S2000000x1_0 : (⟨S2000000, .f32⟩ : BufTy).Contents (Elt F) → (⟨S2000000x1, .f32⟩ : BufTy).Contents (Elt F)),
    nullary main_cst_3 (constant S_ .f32 0x00000000#32),
    unary main_cst_3 main_v18 (broadcastInDim S2000000x1 ![] bcast_S_S2000000x1 : (⟨S_, .f32⟩ : BufTy).Contents (Elt F) → (⟨S2000000x1, .f32⟩ : BufTy).Contents (Elt F)),
    binary main_v17 main_v18 main_v19 (cmpf .ogt : (⟨S2000000x1, .f32⟩ : BufTy).Contents (Elt F) → (⟨S2000000x1, .f32⟩ : BufTy).Contents (Elt F) → (⟨S2000000x1, .i1⟩ : BufTy).Contents (Elt F)),
    nullary main_cst_4 (constant S_ .f32 0x3F800000#32),
    unary main_cst_4 main_v20 (broadcastInDim S2000000x1 ![] bcast_S_S2000000x1 : (⟨S_, .f32⟩ : BufTy).Contents (Elt F) → (⟨S2000000x1, .f32⟩ : BufTy).Contents (Elt F)),
    binary main_v17 main_v20 main_v21 (maximumf : (⟨S2000000x1, .f32⟩ : BufTy).Contents (Elt F) → (⟨S2000000x1, .f32⟩ : BufTy).Contents (Elt F) → (⟨S2000000x1, .f32⟩ : BufTy).Contents (Elt F)),
    unary main_v21 main_v22 (broadcastInDim S2000000x3 ![0, 1] bcast_S2000000x1_S2000000x3_0_1 : (⟨S2000000x1, .f32⟩ : BufTy).Contents (Elt F) → (⟨S2000000x3, .f32⟩ : BufTy).Contents (Elt F)),
    binary main_v12 main_v22 main_v23 (Host.divf : (⟨S2000000x3, .f32⟩ : BufTy).Contents (Elt F) → (⟨S2000000x3, .f32⟩ : BufTy).Contents (Elt F) → (⟨S2000000x3, .f32⟩ : BufTy).Contents (Elt F)),
    TRef.unary (TRef.of (T := ⟨S2000000x1, .i1⟩) main_v19) (TRef.of (T := ⟨S2000000x3, .i1⟩) main_call1_v0) (broadcastInDim S2000000x3 ![0, 1] bcast_S2000000x1_S2000000x3_0_1),
    TRef.ternary (TRef.of (T := ⟨S2000000x3, .i1⟩) main_call1_v0) (TRef.of (T := ⟨S2000000x3, .f32⟩) main_v23) (TRef.of (T := ⟨S2000000x3, .f32⟩) main_arg0) (TRef.of (T := ⟨S2000000x3, .f32⟩) main_v24) select,
    nullary main_cst_5 (constant S_ .f32 0x3F000000#32),
    unary main_cst_5 main_v25 (broadcastInDim S2000000x3 ![] bcast_S_S2000000x3 : (⟨S_, .f32⟩ : BufTy).Contents (Elt F) → (⟨S2000000x3, .f32⟩ : BufTy).Contents (Elt F)),
    binary main_v25 main_arg0 main_v26 (mulf : (⟨S2000000x3, .f32⟩ : BufTy).Contents (Elt F) → (⟨S2000000x3, .f32⟩ : BufTy).Contents (Elt F) → (⟨S2000000x3, .f32⟩ : BufTy).Contents (Elt F)),
    nullary main_cst_6 (constant S_ .f32 0x3F000000#32),
    unary main_cst_6 main_v27 (broadcastInDim S2000000x3 ![] bcast_S_S2000000x3 : (⟨S_, .f32⟩ : BufTy).Contents (Elt F) → (⟨S2000000x3, .f32⟩ : BufTy).Contents (Elt F)),
    binary main_v27 main_v24 main_v28 (mulf : (⟨S2000000x3, .f32⟩ : BufTy).Contents (Elt F) → (⟨S2000000x3, .f32⟩ : BufTy).Contents (Elt F) → (⟨S2000000x3, .f32⟩ : BufTy).Contents (Elt F)),
    binary main_v26 main_v28 main_v29 (addf : (⟨S2000000x3, .f32⟩ : BufTy).Contents (Elt F) → (⟨S2000000x3, .f32⟩ : BufTy).Contents (Elt F) → (⟨S2000000x3, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., binary_bufs_sub .., unary_bufs_sub .., ternary_bufs_sub .., nullary_bufs_sub .., unary_bufs_sub .., binary_bufs_sub .., nullary_bufs_sub .., unary_bufs_sub .., binary_bufs_sub .., binary_bufs_sub ..⟩

/-! ## The result's term, in pieces -/

/-- The near endpoint of every directed edge, as a column: the triangles' corners in row-major order. -/
def edgeFrom (idx : IVec S4000000x3 32) : IVec S12000000x1 32 :=
  broadcastInDim S12000000x1 ![0] bcast_S12000000_S12000000x1_0 (shapeCast _ idx shapeCasts_S4000000x3_S12000000)

/-- The far endpoint: the corners rotated by one within each triangle, a negative index wrapped by the vertex count. -/
def edgeTo (idx : IVec S4000000x3 32) : IVec S12000000x1 32 :=
  broadcastInDim S12000000x1 ![0] bcast_S12000000_S12000000x1_0
    (select
      (cmpi .slt
        (shapeCast _ (concatenate S4000000x3 1 [⟨S4000000x2, extractStridedSlice S4000000x2 ![0, 1] idx slices_S4000000x3_S4000000x2_0_1⟩, ⟨S4000000x1, extractStridedSlice S4000000x1 ![0, 0] idx slices_S4000000x3_S4000000x1_0_0⟩] concatenates_S4000000x2_S4000000x1_S4000000x3_d1) shapeCasts_S4000000x3_S12000000)
        (broadcastInDim S12000000 ![] bcast_S_S12000000 (constantI S_ 32 0#32)))
      (addi
        (shapeCast _ (concatenate S4000000x3 1 [⟨S4000000x2, extractStridedSlice S4000000x2 ![0, 1] idx slices_S4000000x3_S4000000x2_0_1⟩, ⟨S4000000x1, extractStridedSlice S4000000x1 ![0, 0] idx slices_S4000000x3_S4000000x1_0_0⟩] concatenates_S4000000x2_S4000000x1_S4000000x3_d1) shapeCasts_S4000000x3_S12000000)
        (broadcastInDim S12000000 ![] bcast_S_S12000000 (constantI S_ 32 2000000#32)))
      (shapeCast _ (concatenate S4000000x3 1 [⟨S4000000x2, extractStridedSlice S4000000x2 ![0, 1] idx slices_S4000000x3_S4000000x2_0_1⟩, ⟨S4000000x1, extractStridedSlice S4000000x1 ![0, 0] idx slices_S4000000x3_S4000000x1_0_0⟩] concatenates_S4000000x2_S4000000x1_S4000000x3_d1) shapeCasts_S4000000x3_S12000000))

/-- Per vertex, the sum of the far endpoints' positions over its outgoing edges. -/
def nbrSum (a : FVec F S2000000x3 .f32) (idx : IVec S4000000x3 32) : FVec F S2000000x3 .f32 :=
  Host.scatterAdd scatter_S2000000x3_S12000000x1_S12000000x3_1_0_0_1
    (broadcastInDim S2000000x3 ![] bcast_S_S2000000x3 (constant (F := F) S_ .f32 0x00000000#32))
    (edgeFrom idx)
    (Host.gather gather_S2000000x3_S12000000x1_S12000000x3_1_0_n_n_0_1_13 a (edgeTo idx))

/-- Per vertex, the number of its outgoing edges. -/
def nbrCnt (idx : IVec S4000000x3 32) : FVec F S2000000 .f32 :=
  Host.scatterAdd scatter_S2000000_S12000000x1_S12000000_n_0_0_1
    (broadcastInDim S2000000 ![] bcast_S_S2000000 (constant (F := F) S_ .f32 0x00000000#32))
    (edgeFrom idx)
    (broadcastInDim S12000000 ![] bcast_S_S12000000 (constant (F := F) S_ .f32 0x3F800000#32))

/-- The smoothing step over [vertices, 3], the count a column broadcast along the coordinates. -/
def smooth (a s : FVec F S2000000x3 .f32) (cnt : FVec F S2000000 .f32) : FVec F S2000000x3 .f32 :=
  addf (mulf (broadcastInDim S2000000x3 ![] bcast_S_S2000000x3 (constant (F := F) S_ .f32 0x3F000000#32)) a)
    (mulf (broadcastInDim S2000000x3 ![] bcast_S_S2000000x3 (constant (F := F) S_ .f32 0x3F000000#32))
      (select
        (broadcastInDim S2000000x3 ![0, 1] bcast_S2000000x1_S2000000x3_0_1
          (cmpf (F := F) .ogt (broadcastInDim S2000000x1 ![0] bcast_S2000000_S2000000x1_0 cnt)
            (broadcastInDim S2000000x1 ![] bcast_S_S2000000x1 (constant (F := F) S_ .f32 0x00000000#32))))
        (Host.divf s
          (broadcastInDim S2000000x3 ![0, 1] bcast_S2000000x1_S2000000x3_0_1
            (maximumf (broadcastInDim S2000000x1 ![0] bcast_S2000000_S2000000x1_0 cnt)
              (broadcastInDim S2000000x1 ![] bcast_S_S2000000x1 (constant (F := F) S_ .f32 0x3F800000#32)))))
        a))

set_option maxRecDepth 8192 in
set_option maxHeartbeats 2000000 in
/-- On every device, from any memory with zero counters: every weakly fair execution of @main terminates with the
    result at `smooth` of the positions, the neighbour sums and the neighbour counts, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = smooth (m ((c.tc : Thread nD τ).loc main_arg0))
            (nbrSum (m ((c.tc : Thread nD τ).loc main_arg0)) (m ((c.tc : Thread nD τ).loc main_arg1)))
            (nbrCnt (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v29).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.KernelValue.lean ====
/-
  What the idealized kernel's result holds after the run, as one function of the two arguments.

  Inside the region the result array [46875, 128] ends at `G`: lane by lane the body's scalar function of the three
  operand arrays at the same index. Point `t` writes back rows 4096·t … of it — 4096 rows for t < 11, the 1819 rows
  left for t = 11 — and every row r lies in the block of point r / 4096, so the twelve write-backs cover the array.
  The three operands are host reshapes: the positions [2000000, 3] laid out as [46875, 128], the neighbour sums
  likewise, and the neighbour count repeated along the coordinate axis, flattened, and laid out the same way. After
  the region the result is reshaped back to [2000000, 3].
-/
import proofs.«176351_j68186900791880_1_alg».proof.Proof.FrameIdeal
import proofs.«176351_j68186900791880_1_alg».proof.Proof.RefRun
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The result array inside the region -/

/-- The body's lane function applied across whole [46875, 128] arrays. -/
def G (a0 a1 a2 : S46875x128.Idx → Elt F .f32) : S46875x128.Idx → Elt F .f32 := fun i => lane (a0 i) (a1 i) (a2 i)

/-- All four windows move together: block index (t, 0) at point t. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

/-- An operand's block read at a block index is the operand at the result block's array index. -/
theorem read0 (t : Fin cfg0.N) (a : S46875x128.Idx → Elt F .f32) (j : (win0_3.xblock (grid0.coords t)).Idx) :
    (win0_0.blk t).view.read (Elt F) a j = a ((win0_3.blk t).view.emb j) := by
  obtain ⟨e0, e1, -⟩ := idx_facts t
  show a ((win0_0.blk t).view.emb j) = a ((win0_3.blk t).view.emb j)
  refine congrArg a (funext fun x => Fin.ext ?_)
  match x with
  | ⟨0, _⟩ => show win0_0.index t (0 : Fin 2) * 4096 + 1 * (j 0).val = win0_3.index t (0 : Fin 2) * 4096 + 1 * (j 0).val; rw [e0]
  | ⟨1, _⟩ => show win0_0.index t (1 : Fin 2) * 128 + 1 * (j 1).val = win0_3.index t (1 : Fin 2) * 128 + 1 * (j 1).val; rw [e1]
theorem read1 (t : Fin cfg0.N) (a : S46875x128.Idx → Elt F .f32) (j : (win0_3.xblock (grid0.coords t)).Idx) :
    (win0_1.blk t).view.read (Elt F) a j = a ((win0_3.blk t).view.emb j) := by
  obtain ⟨-, -, e0, e1, -⟩ := idx_facts t
  show a ((win0_1.blk t).view.emb j) = a ((win0_3.blk t).view.emb j)
  refine congrArg a (funext fun x => Fin.ext ?_)
  match x with
  | ⟨0, _⟩ => show win0_1.index t (0 : Fin 2) * 4096 + 1 * (j 0).val = win0_3.index t (0 : Fin 2) * 4096 + 1 * (j 0).val; rw [e0]
  | ⟨1, _⟩ => show win0_1.index t (1 : Fin 2) * 128 + 1 * (j 1).val = win0_3.index t (1 : Fin 2) * 128 + 1 * (j 1).val; rw [e1]
theorem read2 (t : Fin cfg0.N) (a : S46875x128.Idx → Elt F .f32) (j : (win0_3.xblock (grid0.coords t)).Idx) :
    (win0_2.blk t).view.read (Elt F) a j = a ((win0_3.blk t).view.emb j) := by
  obtain ⟨-, -, -, -, e0, e1⟩ := idx_facts t
  show a ((win0_2.blk t).view.emb j) = a ((win0_3.blk t).view.emb j)
  refine congrArg a (funext fun x => Fin.ext ?_)
  match x with
  | ⟨0, _⟩ => show win0_2.index t (0 : Fin 2) * 4096 + 1 * (j 0).val = win0_3.index t (0 : Fin 2) * 4096 + 1 * (j 0).val; rw [e0]
  | ⟨1, _⟩ => show win0_2.index t (1 : Fin 2) * 128 + 1 * (j 1).val = win0_3.index t (1 : Fin 2) * 128 + 1 * (j 1).val; rw [e1]

/-- The lane function of the three operand blocks at a point is the result block of `G`. -/
theorem lanes_blk (t : Fin cfg0.N) (A0 A1 A2 : S46875x128.Idx → Elt F .f32) :
    (fun j : (win0_3.xblock (grid0.coords t)).Idx =>
        lane ((win0_0.blk t).view.read (Elt F) A0 j) ((win0_1.blk t).view.read (Elt F) A1 j) ((win0_2.blk t).view.read (Elt F) A2 j))
      = (win0_3.blk t).view.read (Elt F) (G A0 A1 A2) := by
  funext j
  rw [read0, read1, read2]
  rfl

/-- What point `t` writes back is block `t` of `G` of the operand arrays as the region finds them. -/
theorem flushed_eq (c : Dev nD) (t : Fin cfg0.N) :
    (dats m 0 c).flushed 3 t = ((cfg0.win 3).blk t).view.read (Elt F) (G (V m c main_v17) (V m c main_v18) (V m c main_v21)) := by
  show win0_3.cut (grid0.coords t) ((dats m 0 c).after 3 t) = _
  rw [after3]
  unfold blk3 blk0 blk1 blk2
  rw [cut_pay]
  exact lanes_blk t _ _ _

/-- Point t's block: row block t, all lanes; 4096 rows, cut at the array's 46875. -/
theorem blk_facts : ∀ t : Fin cfg0.N, win0_3.index t (0 : Fin 2) = t.val ∧ win0_3.index t (1 : Fin 2) = 0
    ∧ win0_3.xsize (grid0.coords t) (0 : Fin 2) = min 4096 (46875 - t.val * 4096) ∧ win0_3.xsize (grid0.coords t) (1 : Fin 2) = 128 :=
  (by decide +kernel : ∀ t : Fin grid0.N, _)

theorem mem_blk (t : Fin cfg0.N) (i : S46875x128.Idx) :
    i ∈ ((cfg0.win 3).blk t).view.set ↔ ∀ a : Fin 2, win0_3.index t a * S4096x128.size a ≤ (i a).val
      ∧ (i a).val < win0_3.index t a * S4096x128.size a + win0_3.xsize (grid0.coords t) a := by
  show i ∈ ((View.whole main_v22).slice (win0_3.rect t)).set ↔ _
  rw [View.set_slice_whole, Rect.mem_set_unit]
  exact Iff.rfl

/-- Row r of the array is in the block of point r / 4096. -/
theorem cover (i : S46875x128.Idx) : ∃ t : Fin cfg0.N, (cfg0.win 3).flush t = true ∧ i ∈ ((cfg0.win 3).blk t).view.set := by
  have hi0 : (i 0).val < 46875 := (i 0).isLt
  have hi1 : (i 1).val < 128 := (i 1).isLt
  have hN : (i 0).val / 4096 < cfg0.N := by show _ < grid0.N; rw [N_0]; omega
  refine ⟨⟨(i 0).val / 4096, hN⟩, flush0_3 _, ?_⟩
  rw [mem_blk]
  obtain ⟨f0, f1, f2, f3⟩ := blk_facts ⟨(i 0).val / 4096, hN⟩
  intro a
  match a with
  | ⟨0, _⟩ =>
    show win0_3.index ⟨(i 0).val / 4096, hN⟩ (0 : Fin 2) * 4096 ≤ (i 0).val
      ∧ (i 0).val < win0_3.index ⟨(i 0).val / 4096, hN⟩ (0 : Fin 2) * 4096 + win0_3.xsize (grid0.coords ⟨(i 0).val / 4096, hN⟩) (0 : Fin 2)
    rw [f0, f2]
    show (i 0).val / 4096 * 4096 ≤ (i 0).val ∧ (i 0).val < (i 0).val / 4096 * 4096 + min 4096 (46875 - (i 0).val / 4096 * 4096)
    omega
  | ⟨1, _⟩ =>
    show win0_3.index ⟨(i 0).val / 4096, hN⟩ (1 : Fin 2) * 128 ≤ (i 1).val
      ∧ (i 1).val < win0_3.index ⟨(i 0).val / 4096, hN⟩ (1 : Fin 2) * 128 + win0_3.xsize (grid0.coords ⟨(i 0).val / 4096, hN⟩) (1 : Fin 2)
    rw [f1, f3]
    omega

/-- The result array after the last write-back is `G` of the three operand arrays. -/
theorem final3 (c : Dev nD) : (dats m 0 c).arrAt 3 cfg0.N = G (V m c main_v17) (V m c main_v18) (V m c main_v21) :=
  (dats m 0 c).arrAt_eq_of_cover 3 _ (fun t _ => flushed_eq m c t) cover

/-! ## The operand arrays as the region finds them -/

/-- The positions, laid out as [46875, 128]. -/
theorem V17 (c : Dev nD) : (V m c main_v17 : S46875x128.Idx → Elt F .f32)
    = shapeCast S46875x128 (m ((c : Thread nD τ).loc main_arg0)) shapeCasts_S2000000x3_S46875x128 := by
  dsimp only [V, V0]
  simp only [hostOps0, hostOps0_1, hostOps0_2, List.flatten_cons, List.flatten_nil, List.append_nil, List.cons_append, List.nil_append]
  after_results_simp <;> rfl

/-- The neighbour sums, laid out the same way. -/
theorem V18 (c : Dev nD) : (V m c main_v18 : S46875x128.Idx → Elt F .f32)
    = shapeCast S46875x128 (Cert.ReferenceIdeal.RefRun.nbrSum (m ((c : Thread nD τ).loc main_arg0)) (m ((c : Thread nD τ).loc main_arg1)))
        shapeCasts_S2000000x3_S46875x128 := by
  dsimp only [V, V0]
  simp only [hostOps0, hostOps0_1, hostOps0_2, List.flatten_cons, List.flatten_nil, List.append_nil, List.cons_append, List.nil_append]
  after_results_simp <;> rfl

/-- The neighbour counts, repeated along the coordinate axis, flattened, laid out the same way. -/
theorem V21 (c : Dev nD) : (V m c main_v21 : S46875x128.Idx → Elt F .f32)
    = shapeCast S46875x128 (shapeCast S6000000
        (broadcastInDim S2000000x3 ![0] bcast_S2000000_S2000000x3_0 (Cert.ReferenceIdeal.RefRun.nbrCnt (F := F) (m ((c : Thread nD τ).loc main_arg1))))
        shapeCasts_S2000000x3_S6000000) shapeCasts_S6000000_S46875x128 := by
  dsimp only [V, V0]
  simp only [hostOps0, hostOps0_1, hostOps0_2, List.flatten_cons, List.flatten_nil, List.append_nil, List.cons_append, List.nil_append]
  after_results_simp <;> rfl

/-! ## The result after the host tail -/

/-- The kernel's result as one function of the positions and the triangle list. -/
def kout (a : FVec F S2000000x3 .f32) (idx : IVec S4000000x3 32) : FVec F S2000000x3 .f32 :=
  shapeCast S2000000x3
    (G (shapeCast S46875x128 a shapeCasts_S2000000x3_S46875x128)
      (shapeCast S46875x128 (Cert.ReferenceIdeal.RefRun.nbrSum a idx) shapeCasts_S2000000x3_S46875x128)
      (shapeCast S46875x128 (shapeCast S6000000
        (broadcastInDim S2000000x3 ![0] bcast_S2000000_S2000000x3_0 (Cert.ReferenceIdeal.RefRun.nbrCnt (F := F) idx))
        shapeCasts_S2000000x3_S6000000) shapeCasts_S6000000_S46875x128))
    shapeCasts_S46875x128_S2000000x3

/-- The one host operation after the region reshapes the region's result array. -/
theorem tail_eq (c : Dev nD) : Pipeline.afterTail₀ cfgs (dats m) 0 (V0 m) [hostOps1] c main_v23
    = kout (m ((c : Thread nD τ).loc main_arg0)) (m ((c : Thread nD τ).loc main_arg1)) := by
  unfold Pipeline.afterTail₀
  show StableHlo.after hostOps1 _ (Proc.devRef .tc main_v23) = _
  after_results
  rw [Pipeline.withArrays_arr spec0 launch0.win.arr_inj c _ _ 3, final3, V17, V18, V21]
  rfl

/-- The run re-posted: the result at `kout` of the arguments, the arguments unchanged. -/
theorem run : θ_run defs (onTc (τ := τ) (main (F := F))) ⟨m, fun _ => 0, ρ⟩ fun r => ∀ c : Dev nD,
      r.2.mem ((c.tc : Thread nD τ).loc main_v23) = kout (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v23 (Pipeline.mem_restRefs_of main_v23 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.Bridge.lean ====
/-
  The two idealized programs compute one function of the arguments.

  The kernel works on the positions laid out as [46875, 128] and reshapes its result back to [2000000, 3]; a lane-wise
  function commutes with a reshape, and a reshape there and back is the identity, so at coordinate k of vertex n
  the kernel's result is its lane function of the position, the neighbour sum, and the neighbour count of vertex n
  (the count having been repeated along the coordinate axis before it was flattened). The reference broadcasts the
  count as a column [2000000, 1] along the same axis, so it reads the same count at the same vertex; its quotient is
  the host's divide, which on the extended reals is the kernel's. The two sides are then one term.
-/
import proofs.«176351_j68186900791880_1_alg».proof.Proof.KernelValue
import Idealize.ShloMosaic.Lib.ValueIdx
import Idealize.ShloMosaic.Lib.Pipeline.Value

noncomputable section

namespace Cert.Bridge

open Cert.KernelIdeal Cert.KernelIdeal.Gen Cert.KernelIdeal.Body Cert.KernelIdeal.KValue
open Idealize.ShloMosaic Idealize.ShloMosaic.ValueIdx

/-- The reference's smoothing step at coordinate `q` of vertex `p` is the kernel's lane function of the position, the
    neighbour sum and the vertex's neighbour count. -/
theorem smooth_apply (a s : FVec Ideal S2000000x3 .f32) (cnt : FVec Ideal S2000000 .f32) (p : Fin 2000000) (q : Fin 3) :
    Cert.ReferenceIdeal.RefRun.smooth a s cnt (ix2 p q) = lane (F := Ideal) (a (ix2 p q)) (s (ix2 p q)) (cnt (ix1 p)) := by
  have e2 : ∀ {β : Type} (h : Cert.ReferenceIdeal.S2000000x1.BroadcastsInDim S2000000x3 (![0, 1] : Fin 2 → Fin 2))
      (X : Cert.ReferenceIdeal.S2000000x1.Idx → β),
      broadcastInDim S2000000x3 (![0, 1] : Fin 2 → Fin 2) h X (ix2 p q) = X (ix2 p (0 : Fin 1)) := fun h X =>
    broadcastInDim_apply (![0, 1] : Fin 2 → Fin 2) h X (ix2 p q) (ix2 p (0 : Fin 1)) (fun x => by match x with | ⟨0, _⟩ => rfl | ⟨1, _⟩ => rfl)
  have e3 : ∀ (h : S2000000.BroadcastsInDim Cert.ReferenceIdeal.S2000000x1 (![0] : Fin 1 → Fin 2)),
      broadcastInDim Cert.ReferenceIdeal.S2000000x1 (![0] : Fin 1 → Fin 2) h cnt (ix2 p (0 : Fin 1)) = cnt (ix1 p) := fun h =>
    broadcastInDim_apply (![0] : Fin 1 → Fin 2) h cnt (ix2 p (0 : Fin 1)) (ix1 p) (fun x => by match x with | ⟨0, _⟩ => rfl)
  unfold Cert.ReferenceIdeal.RefRun.smooth
  show FloatOps.addf (FloatOps.mulf _ (a (ix2 p q)))
      (FloatOps.mulf _ (Scalar.select (broadcastInDim (s := Cert.ReferenceIdeal.S2000000x1) S2000000x3 (![0, 1] : Fin 2 → Fin 2) _ _ (ix2 p q))
        (FloatOps.hostDivf (s (ix2 p q)) (broadcastInDim (s := Cert.ReferenceIdeal.S2000000x1) S2000000x3 (![0, 1] : Fin 2 → Fin 2) _ _ (ix2 p q))) (a (ix2 p q)))) = _
  rw [e2, e2]
  show FloatOps.addf (FloatOps.mulf _ (a (ix2 p q)))
      (FloatOps.mulf _ (Scalar.select (FloatOps.cmpf .ogt (broadcastInDim Cert.ReferenceIdeal.S2000000x1 (![0] : Fin 1 → Fin 2) _ cnt (ix2 p (0 : Fin 1))) _)
        (FloatOps.hostDivf (s (ix2 p q)) (FloatOps.maximumf (broadcastInDim Cert.ReferenceIdeal.S2000000x1 (![0] : Fin 1 → Fin 2) _ cnt (ix2 p (0 : Fin 1))) _)) (a (ix2 p q)))) = _
  rw [e3]
  rfl

/-- The kernel's result, for any neighbour sums and counts, is the reference's smoothing step of them. -/
theorem reshaped_lanes_eq_smooth (a s : FVec Ideal S2000000x3 .f32) (cnt : FVec Ideal S2000000 .f32) :
    shapeCast S2000000x3
        (G (F := Ideal) (shapeCast S46875x128 a shapeCasts_S2000000x3_S46875x128)
          (shapeCast S46875x128 s shapeCasts_S2000000x3_S46875x128)
          (shapeCast S46875x128 (shapeCast S6000000 (broadcastInDim S2000000x3 ![0] bcast_S2000000_S2000000x3_0 cnt)
            shapeCasts_S2000000x3_S6000000) shapeCasts_S6000000_S46875x128))
        shapeCasts_S46875x128_S2000000x3
      = Cert.ReferenceIdeal.RefRun.smooth a s cnt := by
  funext i
  obtain ⟨p, q, rfl⟩ : ∃ (p : Fin 2000000) (q : Fin 3), i = ix2 p q := ⟨i 0, i 1, eq_ix2 i⟩
  have ea : shapeCast S2000000x3 (shapeCast S46875x128 a shapeCasts_S2000000x3_S46875x128) shapeCasts_S46875x128_S2000000x3 (ix2 p q)
      = a (ix2 p q) := congrFun (shapeCast_shapeCast a _ _) _
  have es : shapeCast S2000000x3 (shapeCast S46875x128 s shapeCasts_S2000000x3_S46875x128) shapeCasts_S46875x128_S2000000x3 (ix2 p q)
      = s (ix2 p q) := congrFun (shapeCast_shapeCast s _ _) _
  have ec : shapeCast S2000000x3 (shapeCast S46875x128 (shapeCast S6000000 (broadcastInDim S2000000x3 ![0] bcast_S2000000_S2000000x3_0 cnt)
        shapeCasts_S2000000x3_S6000000) shapeCasts_S6000000_S46875x128) shapeCasts_S46875x128_S2000000x3 (ix2 p q)
      = cnt (ix1 p) := by
    unfold shapeCast
    rw [Shape.reshapeEquiv_reshapeEquiv, Shape.reshapeEquiv_reshapeEquiv, Shape.reshapeEquiv_self]
    exact broadcastInDim_apply (![0] : Fin 1 → Fin 2) _ cnt (ix2 p q) (ix1 p) (fun x => by match x with | ⟨0, _⟩ => rfl)
  rw [smooth_apply]
  show lane (F := Ideal)
      (shapeCast S2000000x3 (shapeCast S46875x128 a shapeCasts_S2000000x3_S46875x128) shapeCasts_S46875x128_S2000000x3 (ix2 p q))
      (shapeCast S2000000x3 (shapeCast S46875x128 s shapeCasts_S2000000x3_S46875x128) shapeCasts_S46875x128_S2000000x3 (ix2 p q))
      (shapeCast S2000000x3 (shapeCast S46875x128 (shapeCast S6000000 (broadcastInDim S2000000x3 ![0] bcast_S2000000_S2000000x3_0 cnt)
        shapeCasts_S2000000x3_S6000000) shapeCasts_S6000000_S46875x128) shapeCasts_S46875x128_S2000000x3 (ix2 p q)) = _
  rw [ea, es, ec]

/-- So the kernel's result is the reference's, as functions of the positions and the triangle list. -/
theorem kout_eq (a : FVec Ideal S2000000x3 .f32) (idx : IVec S4000000x3 32) :
    kout (F := Ideal) a idx
      = Cert.ReferenceIdeal.RefRun.smooth a (Cert.ReferenceIdeal.RefRun.nbrSum a idx) (Cert.ReferenceIdeal.RefRun.nbrCnt (F := Ideal) idx) :=
  reshaped_lanes_eq_smooth a _ _

end Cert.Bridge

end
-- ==== Proof.lean ====
/-
  Laplacian smoothing of a triangle mesh: a pipelined kernel against its jnp reference, equal on the extended reals.

  Both programs first compute, for every vertex, the sum of the positions of the far endpoints of its outgoing
  edges and the number of those edges (a gather and two accumulating scatters on the host, the same operations on
  both sides), and then replace every coordinate v by ½·v + ½·(if count > 0 then sum / max(count, 1) else v). The
  reference does the second step on [2000000, 3] with the count broadcast as a column. The kernel lays positions,
  sums and the count repeated three times out as [46875, 128], runs the step lane by lane in twelve row blocks of
  4096 rows — the last block overhangs the arrays, and only its 1819 rows inside them are fetched and written back
  — and reshapes the result back. A lane-wise function commutes with the reshapes and the twelve blocks cover the
  array, so the kernel's result is the same function of the arguments, index by index; no algebraic law and no
  finiteness of the inputs is used, only that the host's divide and the kernel's are one operation on the
  extended reals.

  The three frames: each kernel program's by the library's frame run around its region, the body's obligation
  stated on the rows the clipped transfers move; the reference's from its run read back. The idealization rewrote
  no operation, so the preservation claim is trivial.
-/
import proofs.«176351_j68186900791880_1_alg».proof.Defs
import proofs.«176351_j68186900791880_1_alg».proof.Proof.Gen.Kernel
import proofs.«176351_j68186900791880_1_alg».proof.Proof.Gen.KernelIdeal
import proofs.«176351_j68186900791880_1_alg».proof.Proof.Gen.ReferenceIdeal
import proofs.«176351_j68186900791880_1_alg».proof.Proof.Gen.Pre_finite_inputs
import proofs.«176351_j68186900791880_1_alg».proof.Proof.FrameBits
import proofs.«176351_j68186900791880_1_alg».proof.Proof.FrameIdeal
import proofs.«176351_j68186900791880_1_alg».proof.Proof.RefRun
import proofs.«176351_j68186900791880_1_alg».proof.Proof.KernelValue
import proofs.«176351_j68186900791880_1_alg».proof.Proof.Bridge
import Idealize.ShloMosaic.Adequacy
import Idealize.ShloMosaic.Init

noncomputable section

namespace Cert.Proof

open Idealize.ShloMosaic Idealize.SL.Sem

/-- The word-level kernel terminates, faults nowhere and leaves its arguments as launched. -/
theorem frame_k : Cert.frame_Kernel (hKernel := Cert.Kernel.Gen.facts) (hPre_finite_inputs := Cert.Pre_finite_inputs.Gen.facts) :=
  fun m ρ _ => Cert.Kernel.Body.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- And the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.1, (h c).2.2⟩)
    (Cert.ReferenceIdeal.RefRun.run (F := Ideal) m ρ)

/-- From memories agreeing on the arguments both idealized programs end with the same smoothed positions and the
    triangle list unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.kout (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2, (h c).2.1, (h c).2.2⟩)
      (Cert.KernelIdeal.KValue.run (F := Ideal) m ρ)
  · refine (θ_run Cert.ReferenceIdeal.defs _ _).mono (fun _ h c => ⟨?_, (h c).2.2.trans (hagree c).2, (h c).2.1, (h c).2.2⟩)
      (Cert.ReferenceIdeal.RefRun.run (F := Ideal) m' ρ')
    rw [(h c).1, (hagree c).1, (hagree c).2]
    exact (Cert.Bridge.kout_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
